-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x6 .f32) (main_arg1 : IVec S2x1600000 32) (main_arg2 : FVec F S6x64 .f32) (main_arg3 : FVec F S64 .f32) (main_arg4 : FVec F S64x8 .f32) (main_arg5 : FVec F S8 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S100000x64 : Shape := ⟨2, ![100000, 64]⟩
abbrev S10000x6 : Shape := ⟨2, ![10000, 6]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S10000x1 : Shape := ⟨2, ![10000, 1]⟩
abbrev S1x64 : Shape := ⟨2, ![1, 64]⟩
abbrev S100000x8 : Shape := ⟨2, ![100000, 8]⟩
abbrev S10000x8 : Shape := ⟨2, ![10000, 8]⟩
abbrev S1600000x8 : Shape := ⟨2, ![1600000, 8]⟩
abbrev S1x8 : Shape := ⟨2, ![1, 8]⟩

abbrev nBuf : Space → Nat
  | .hbm => 108
  | .vmem => 28
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x8, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000, .f32⟩
  | .hbm, ⟨88, _⟩ => ⟨S1600000, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x8, .f32⟩
  | .hbm, ⟨98, _⟩ => ⟨S1600000x1, .f32⟩
  | .hbm, ⟨99, _⟩ => ⟨S1600000x8, .f32⟩
  | .hbm, ⟨100, _⟩ => ⟨S1600000x8, .f32⟩
  | .hbm, ⟨101, _⟩ => ⟨S_, .f32⟩
  | .hbm, ⟨102, _⟩ => ⟨S100000x8, .f32⟩
  | .hbm, ⟨103, _⟩ => ⟨S1600000x1, .i32⟩
  | .hbm, ⟨104, _⟩ => ⟨S100000x8, .f32⟩
  | .hbm, ⟨105, _⟩ => ⟨S100000, .f32⟩
  | .hbm, ⟨106, _⟩ => ⟨S100000x1, .f32⟩
  | .hbm, ⟨107, _⟩ => ⟨S100000x8, .f32⟩
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x8, .f32⟩
  | .local _ .vmem, ⟨17, _⟩ => ⟨S10000x8, .f32⟩
  | .local _ .vmem, ⟨18, _⟩ => ⟨S10000x8, .f32⟩
  | .local _ .vmem, ⟨19, _⟩ => ⟨S10000x8, .f32⟩
  | .local _ .vmem, ⟨20, _⟩ => ⟨S10000x8, .f32⟩
  | .local _ .vmem, ⟨21, _⟩ => ⟨S10000x8, .f32⟩
  | .local _ .vmem, ⟨22, _⟩ => ⟨S10000x8, .f32⟩
  | .local _ .vmem, ⟨23, _⟩ => ⟨S10000x1, .f32⟩
  | .local _ .vmem, ⟨24, _⟩ => ⟨S10000x1, .f32⟩
  | .local _ .vmem, ⟨25, _⟩ => ⟨S8, .f32⟩
  | .local _ .vmem, ⟨26, _⟩ => ⟨S10000x8, .f32⟩
  | .local _ .vmem, ⟨27, _⟩ => ⟨S10000x8, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x8_S64x8_0_0 : ∀ a, (![0, 0] : Fin 2 → Nat) a + S64x8.size a ≤ S64x8.size a
  h_S64x8 : 0 < S64x8.numel
  inb_S10000x8_S10000x8_0_0 : ∀ a, (![0, 0] : Fin 2 → Nat) a + S10000x8.size a ≤ S10000x8.size a
  h_S10000x8 : 0 < S10000x8.numel
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  shapeCasts_S10000x8_S10000x8 : S10000x8.ShapeCasts S10000x8
  broadcasts_S10000x1_S10000x8 : S10000x1.Broadcasts S10000x8
  inb_S8_S8_0 : ∀ a, (![0] : Fin 1 → Nat) a + S8.size a ≤ S8.size a
  h_S8 : 0 < S8.numel
  shapeCasts_S8_S1x8 : S8.ShapeCasts S1x8
  broadcasts_S1x8_S10000x8 : S1x8.Broadcasts S10000x8
  dot_S10000x6_S6x64_S10000x64_1_0_0_1_n_n_wf : DotDims.WF S10000x6 S6x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x8_S10000x8_1_0_0_1_n_n_wf : DotDims.WF S10000x64 S64x8 S10000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8.size a ≤ S64x8.size a
  hwx2_1 : ∀ i : grid2.Coords, EltTy.bits .f32 = 32 ∨ (Rect.block (s := S64x8) S64x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x8.size a ≤ S100000x8.size a
  hwx3_1 : ∀ i : grid3.Coords, EltTy.bits .f32 = 32 ∨ (Rect.block (s := S100000x8) S10000x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8.size a ≤ S8.size a
  hwx3_3 : ∀ i : grid3.Coords, EltTy.bits .f32 = 32 ∨ (Rect.block (s := S8) S8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x8.size a ≤ S100000x8.size a
  hwx3_4 : ∀ i : grid3.Coords, EltTy.bits .f32 = 32 ∨ (Rect.block (s := S100000x8) S10000x8.size (cc3_transform_4 i) (hinb3_4 i)).WholeWords (EltTy.packing .f32)

variable [Facts₀]

def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S10000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x8 : Shape := ⟨2, ![100000, 8]⟩
abbrev S1600000x8 : Shape := ⟨2, ![1600000, 8]⟩
abbrev S1x8 : Shape := ⟨2, ![1, 8]⟩

abbrev nBuf : Space → Nat
  | .hbm => 121
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x8, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x8, .f32⟩
  | .hbm, ⟨106, _⟩ => ⟨S1600000x1, .f32⟩
  | .hbm, ⟨107, _⟩ => ⟨S1600000x8, .f32⟩
  | .hbm, ⟨108, _⟩ => ⟨S1600000x8, .f32⟩
  | .hbm, ⟨109, _⟩ => ⟨S_, .f32⟩
  | .hbm, ⟨110, _⟩ => ⟨S100000x8, .f32⟩
  | .hbm, ⟨111, _⟩ => ⟨S1600000x1, .i32⟩
  | .hbm, ⟨112, _⟩ => ⟨S100000x8, .f32⟩
  | .hbm, ⟨113, _⟩ => ⟨S100000, .f32⟩
  | .hbm, ⟨114, _⟩ => ⟨S100000x1, .f32⟩
  | .hbm, ⟨115, _⟩ => ⟨S100000x8, .f32⟩
  | .hbm, ⟨116, _⟩ => ⟨S100000x8, .f32⟩
  | .hbm, ⟨117, _⟩ => ⟨S100000x8, .f32⟩
  | .hbm, ⟨118, _⟩ => ⟨S1x8, .f32⟩
  | .hbm, ⟨119, _⟩ => ⟨S100000x8, .f32⟩
  | .hbm, ⟨120, _⟩ => ⟨S100000x8, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x6_S6x64_S100000x64_1_0_0_1_n_n_wf : DotDims.WF S100000x6 S6x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x8_S100000x8_1_0_0_1_n_n_wf : DotDims.WF S100000x64 S64x8 S100000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

class Facts : Prop extends Facts₀ where

variable [Facts]
-- ==== Proof.RunResult.lean ====
/-
  The whole program's run, with its result named.

  The program is seven segments: host operations, the first dense layer, host operations, the first combination, the
  second dense layer, host operations, the second combination. The memory at each boundary is a fold from the launch
  memory; the last fold, read at the result's buffer, is what every weakly fair execution leaves there. The statement
  below is the frame's, with that one equation added.
-/
import proofs.«112417_j23192823399174_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result's buffer ends at the last boundary's contents
    and the six argument arrays end as launched. -/
theorem run_result : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Network.lean ====
/-
  The graph convolution's pieces as named array functions, and the reference program's result in terms of them.

  One layer computes, from node features h [100000, F] and the edge list (source and target node of each of the
  1600000 edges): the degree of every node (the number of edges that point at it, plus one for its self-loop), its
  inverse square root d, the edge weight d(source) · d(target), the aggregate (for every node, the sum over the edges
  that point at it of the source's feature row times the edge weight), and finally aggregate + h · d² + bias. The host
  operations that compute the degrees, the edge weights and the aggregate are the same in the kernel's program and in
  the reference: they are named here once, as functions of the edge list and of the feature array, and never opened.
-/
import proofs.«112417_j23192823399174_1_alg».proof.Proof.Gen.ReferenceIdeal.Run
import Idealize.ShloMosaic.PureOps.Ideal

noncomputable section

namespace Cert.Gcn

open Cert.ReferenceIdeal Cert.ReferenceIdeal.Gen Idealize.ShloMosaic Idealize.ShloMosaic.TcCoe Idealize.SL.Sem

/-- Row 0 of the edge list: each edge's source node. -/
def sourceOf (e : IVec S2x1600000 32) : IVec S1600000 32 :=
  shapeCast _ (extractStridedSlice S1x1600000 ![0, 0] e slices_S2x1600000_S1x1600000_0_0) shapeCasts_S1x1600000_S1600000

/-- Row 1 of the edge list: each edge's target node. -/
def targetOf (e : IVec S2x1600000 32) : IVec S1600000 32 :=
  shapeCast _ (extractStridedSlice S1x1600000 ![1, 0] e slices_S2x1600000_S1x1600000_1_0) shapeCasts_S1x1600000_S1600000

/-- A node number read the way array indexing reads it: a negative one counts from the end. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- Every node's d = (number of edges pointing at it + 1)^(-1/2). -/
def invSqrtDegree (dst : IVec S1600000 32) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- Every edge's weight d(source) · d(target). -/
def edgeWeight (src dst : IVec S1600000 32) : FVec Ideal S1600000 .f32 :=
  mulf
    (Host.gather gather_S100000_S1600000x1_S1600000_n_0_n_n_0_1_1 (invSqrtDegree dst)
      (broadcastInDim S1600000x1 ![0] bcast_S1600000_S1600000x1_0 (wrapped src)))
    (Host.gather gather_S100000_S1600000x1_S1600000_n_0_n_n_0_1_1 (invSqrtDegree dst)
      (broadcastInDim S1600000x1 ![0] bcast_S1600000_S1600000x1_0 (wrapped dst)))

/-- The 64-feature aggregate: for every node the sum, over the edges pointing at it, of the source's row times the edge weight. -/
def aggregate64 (src dst : IVec S1600000 32) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0 (wrapped src)))
      (broadcastInDim S1600000x64 ![0, 1] bcast_S1600000x1_S1600000x64_0_1
        (broadcastInDim S1600000x1 ![0] bcast_S1600000_S1600000x1_0 (edgeWeight src dst))))

/-- The 8-feature aggregate. -/
def aggregate8 (src dst : IVec S1600000 32) (h : FVec Ideal S100000x8 .f32) : FVec Ideal S100000x8 .f32 :=
  Host.scatterAdd scatter_S100000x8_S1600000x1_S1600000x8_1_0_0_1
    (broadcastInDim S100000x8 ![] bcast_S_S100000x8 (constant S_ .f32 0x00000000#32))
    (broadcastInDim S1600000x1 ![0] bcast_S1600000_S1600000x1_0 dst)
    (mulf
      (Host.gather gather_S100000x8_S1600000x1_S1600000x8_1_0_n_n_0_1_18 h
        (broadcastInDim S1600000x1 ![0] bcast_S1600000_S1600000x1_0 (wrapped src)))
      (broadcastInDim S1600000x8 ![0, 1] bcast_S1600000x1_S1600000x8_0_1
        (broadcastInDim S1600000x1 ![0] bcast_S1600000_S1600000x1_0 (edgeWeight src dst))))

/-- The self-loop coefficient d² of every node, as a column [100000, 1]. -/
def selfLoopColumn (dst : IVec S1600000 32) : FVec Ideal S100000x1 .f32 :=
  broadcastInDim S100000x1 ![0] bcast_S100000_S100000x1_0 (mulf (invSqrtDegree dst) (invSqrtDegree dst))

/-- The first dense layer as the reference computes it. -/
def dense1 (x : FVec Ideal S100000x6 .f32) (w : FVec Ideal S6x64 .f32) : FVec Ideal S100000x64 .f32 :=
  Host.dotGeneral dot_S100000x6_S6x64_S100000x64_1_0_0_1_n_n none x w

/-- The second dense layer as the reference computes it. -/
def dense2 (y : FVec Ideal S100000x64 .f32) (w : FVec Ideal S64x8 .f32) : FVec Ideal S100000x8 .f32 :=
  Host.dotGeneral dot_S100000x64_S64x8_S100000x8_1_0_0_1_n_n none y w

/-- The first layer's output as the reference computes it: aggregate + h · d² + bias, then the maximum with zero. -/
def layer1Out (agg h : FVec Ideal S100000x64 .f32) (s : FVec Ideal S100000x1 .f32) (b : FVec Ideal S64 .f32) : FVec Ideal S100000x64 .f32 :=
  maximumf
    (addf (addf agg (mulf h (broadcastInDim S100000x64 ![0, 1] bcast_S100000x1_S100000x64_0_1 s)))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer's output as the reference computes it: aggregate + h · d² + bias. -/
def layer2Out (agg h : FVec Ideal S100000x8 .f32) (s : FVec Ideal S100000x1 .f32) (b : FVec Ideal S8 .f32) : FVec Ideal S100000x8 .f32 :=
  addf (addf agg (mulf h (broadcastInDim S100000x8 ![0, 1] bcast_S100000x1_S100000x8_0_1 s)))
    (broadcastInDim S100000x8 ![0, 1] bcast_S1x8_S100000x8_0_1 (broadcastInDim S1x8 ![1] bcast_S8_S1x8_1 b))

/-- The two layers composed: the network's output from its six arguments. -/
def network (x : FVec Ideal S100000x6 .f32) (e : IVec S2x1600000 32) (w1 : FVec Ideal S6x64 .f32) (b1 : FVec Ideal S64 .f32)
    (w2 : FVec Ideal S64x8 .f32) (b2 : FVec Ideal S8 .f32) : FVec Ideal S100000x8 .f32 :=
  let h1 := dense1 x w1
  let y1 := layer1Out (aggregate64 (sourceOf e) (targetOf e) h1) h1 (selfLoopColumn (targetOf e)) b1
  let h2 := dense2 y1 w2
  layer2Out (aggregate8 (sourceOf e) (targetOf e) h2) h2 (selfLoopColumn (targetOf e)) b2

set_option maxRecDepth 16384 in
/-- The reference's result is the network of its arguments: the run's composed term, with its pieces named. -/
theorem reference_result (m : (ℓ : Loc nD τ sig) → Buf (Elt Ideal) ℓ) (c : Dev nD) :
    Cert.ReferenceIdeal.Value.res_main_v92 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v92
  rfl

end Cert.Gcn

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Linear1.lean ====
/-
  The first dense layer's kernel, read as one array.

  The kernel walks the 100000 rows in ten blocks of 10000. At a block it multiplies the block's rows [10000, 6] by the
  whole weight matrix [6, 64] into a zero accumulator and stores the product as the block's rows of the result. Over the
  extended reals a product entry is a finite sum, so the block written at point t is rows 10000 t … 10000 t + 9999 of
  the one array whose entry (r, g) is the sum over k < 6 of x(r, k) · w(k, g); the ten blocks tile the result.
-/
import proofs.«112417_j23192823399174_1_alg».proof.Proof.Gen.KernelIdeal.Frame
import proofs.«112417_j23192823399174_1_alg».proof.Proof.LibPlainDot
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- The matrix product of an [M, K] array and a [K, N] array over the extended reals, entry by entry. -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem zero_offsets : (![0, 0] : Fin 2 → Nat) = fun _ => 0 := funext fun a => by fin_cases a <;> rfl

variable (V : (c : Dev nD) → (b : Ref sig .tc) → Buf (Elt Ideal) ((c : Thread nD τ).loc b))

/-- The body's stored value at row p, column g of a block: the row of the input block against the weight column. -/
theorem linear1_entry (x0 : Vec Ideal S10000x6 .f32) (x1 : Vec Ideal S6x64 .f32) (p : Fin 10000) (g : Fin 64) :
    k0_pay1 (F := Ideal) x0 x1 (ix2 p g) = ∑ k : Fin 6, x0 (ix2 p k) * x1 (ix2 k g) := by
  unfold k0_pay1
  exact Cert.PlainDot.matmul_zero_apply dot_S10000x6_S6x64_S10000x64_1_0_0_1_n_n rfl _ _ p g

/-- The block positions over the grid: the row windows sit at block t, the weight window at block 0. -/
theorem positions0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two argument arrays as the region finds them. -/
theorem flushed0 (c : Dev nD) (t : Fin cfg0.N) :
    (dat0 V c).flushed 2 t
      = ((cfg0.win 2).blk t).view.read (Elt Ideal) (matProd (M := 100000) (K := 6) (N := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x6) zero_offsets, View.ld_unit_zero (S := S6x64) zero_offsets]
  obtain ⟨e0, e1, e2, e3, e4, e5⟩ := positions0 t
  funext j
  obtain ⟨p, g, rfl⟩ : ∃ (p : Fin 10000) (g : Fin 64), j = ix2 p g := ⟨j 0, j 1, eq_ix2 j⟩
  show k0_pay1 (F := Ideal) (iblk0 V c 0 t) (iblk0 V c 1 t) (ix2 p g) = _
  refine (linear1_entry _ _ p g).trans ?_
  let X : FVec Ideal S100000x6 .f32 := V c main_arg0
  let W : FVec Ideal S6x64 .f32 := V c main_arg2
  show _ = ∑ k : Fin 6, X (ix2 ((((cfg0.win 2).blk t).view.emb (ix2 p g)) 0) k) * W (ix2 k ((((cfg0.win 2).blk t).view.emb (ix2 p g)) 1))
  refine Finset.sum_congr rfl fun k _ => ?_
  show X (((cfg0.win 0).blk t).view.emb (ix2 p k)) * W (((cfg0.win 1).blk t).view.emb (ix2 k g)) = _
  have h0 : ((cfg0.win 0).blk t).view.emb (ix2 p k) = ix2 ((((cfg0.win 2).blk t).view.emb (ix2 p g)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 6 + 1 * k.val = k.val; omega
  have h1 : ((cfg0.win 1).blk t).view.emb (ix2 k g) = ix2 k ((((cfg0.win 2).blk t).view.emb (ix2 p g)) 1) := by
    funext a; apply Fin.ext
    match a with
    | ⟨0, _⟩ => show win0_1.index t (0 : Fin 2) * 6 + 1 * k.val = k.val; omega
    | ⟨1, _⟩ => show win0_1.index t (1 : Fin 2) * 64 + 1 * g.val = win0_2.index t (1 : Fin 2) * 64 + 1 * g.val; omega
  rw [h0, h1] <;> rfl

/-- An index of the result is in point t's block iff its row lies in rows 10000 t … 10000 t + 9999. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every row belongs to the block of the point whose number is the row divided by 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := positions0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first layer's product array after the region: the whole matrix product of the two arrays the region found. -/
theorem final0 (c : Dev nD) :
    (dat0 V c).arrAt 2 cfg0.N = matProd (M := 100000) (K := 6) (N := 64) (V c main_arg0) (V c main_arg2) :=
  (dat0 V c).arrAt_eq_of_cover 2 _ (fun t _ => flushed0 V c t) cover0

end Cert.KernelIdeal.Blocks

end
-- ==== Proof.Linear2.lean ====
/-
  The second dense layer's kernel, read as one array.

  As for the first layer: at block t the kernel multiplies rows 10000 t … 10000 t + 9999 of the [100000, 64] feature
  array by the whole weight matrix [64, 8] into a zero accumulator and stores the product as the block's rows of the
  result. Over the extended reals entry (r, g) of the result is the sum over k < 64 of y(r, k) · w(k, g).
-/
import proofs.«112417_j23192823399174_1_alg».proof.Proof.Gen.KernelIdeal.Frame
import proofs.«112417_j23192823399174_1_alg».proof.Proof.LibPlainDot
import proofs.«112417_j23192823399174_1_alg».proof.Proof.Linear1
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value at row p, column g of a block: the row of the input block against the weight column. -/
theorem linear2_entry (x0 : Vec Ideal S10000x64 .f32) (x1 : Vec Ideal S64x8 .f32) (p : Fin 10000) (g : Fin 8) :
    k2_pay1 (F := Ideal) x0 x1 (ix2 p g) = ∑ k : Fin 64, x0 (ix2 p k) * x1 (ix2 k g) := by
  have e0 : shapeCast S10000x64 x0 shapeCasts_S10000x64_S10000x64 = x0 := shapeCast_self _ _
  unfold k2_pay1
  show matmul (F := Ideal) dot_S10000x64_S64x8_S10000x8_1_0_0_1_n_n none (truncf (F := Ideal) .bf16 (shapeCast S10000x64 x0 shapeCasts_S10000x64_S10000x64) bitsLt_bf16_f32)
      (truncf (F := Ideal) .bf16 x1 bitsLt_bf16_f32) (constant (F := Ideal) S10000x8 .f32 0x00000000#32) (ix2 p g) = _
  rw [e0]
  exact Cert.PlainDot.matmul_zero_apply dot_S10000x64_S64x8_S10000x8_1_0_0_1_n_n rfl _ _ p g

/-- The block positions over the grid: the row windows sit at block t, the weight window at block 0. -/
theorem positions2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two argument arrays as the region finds them. -/
theorem flushed2 (c : Dev nD) (t : Fin cfg2.N) :
    (dat2 V c).flushed 2 t
      = ((cfg2.win 2).blk t).view.read (Elt Ideal) (matProd (M := 100000) (K := 64) (N := 8) (V c main_v42) (V c main_arg4)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x8) zero_offsets]
  obtain ⟨e0, e1, e2, e3, e4, e5⟩ := positions2 t
  funext j
  obtain ⟨p, g, rfl⟩ : ∃ (p : Fin 10000) (g : Fin 8), j = ix2 p g := ⟨j 0, j 1, eq_ix2 j⟩
  show k2_pay1 (F := Ideal) (iblk2 V c 0 t) (iblk2 V c 1 t) (ix2 p g) = _
  refine (linear2_entry _ _ p g).trans ?_
  let X : FVec Ideal S100000x64 .f32 := V c main_v42
  let W : FVec Ideal S64x8 .f32 := V c main_arg4
  show _ = ∑ k : Fin 64, X (ix2 ((((cfg2.win 2).blk t).view.emb (ix2 p g)) 0) k) * W (ix2 k ((((cfg2.win 2).blk t).view.emb (ix2 p g)) 1))
  refine Finset.sum_congr rfl fun k _ => ?_
  show X (((cfg2.win 0).blk t).view.emb (ix2 p k)) * W (((cfg2.win 1).blk t).view.emb (ix2 k g)) = _
  have h0 : ((cfg2.win 0).blk t).view.emb (ix2 p k) = ix2 ((((cfg2.win 2).blk t).view.emb (ix2 p g)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k g) = ix2 k ((((cfg2.win 2).blk t).view.emb (ix2 p g)) 1) := by
    funext a; apply Fin.ext
    match a with
    | ⟨0, _⟩ => show win2_1.index t (0 : Fin 2) * 64 + 1 * k.val = k.val; omega
    | ⟨1, _⟩ => show win2_1.index t (1 : Fin 2) * 8 + 1 * g.val = win2_2.index t (1 : Fin 2) * 8 + 1 * g.val; omega
  rw [h0, h1] <;> rfl

/-- An index of the result is in point t's block iff its row lies in rows 10000 t … 10000 t + 9999. -/
theorem mem_block2 (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v43).slice (win2_2.rect t)).set ↔ _
  rw [View.set_slice_whole, Rect.mem_set_unit]
  exact Iff.rfl

/-- Every row belongs to the block of the point whose number is the row divided by 10000. -/
theorem cover2 (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  let t : Fin cfg2.N := ⟨(i 0).val / 10000, by rw [show cfg2.N = 10 from N_2]; omega⟩
  obtain ⟨e0, e1, e2, e3, e4, e5⟩ := positions2 t
  have ht : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 8 ≤ (i 1).val ∧ (i 1).val < win2_2.index t (1 : Fin 2) * 8 + 8; omega

/-- The second layer's product array after the region: the whole matrix product of the two arrays the region found. -/
theorem final2 (c : Dev nD) :
    (dat2 V c).arrAt 2 cfg2.N = matProd (M := 100000) (K := 64) (N := 8) (V c main_v42) (V c main_arg4) :=
  (dat2 V c).arrAt_eq_of_cover 2 _ (fun t _ => flushed2 V c t) cover2

end Cert.KernelIdeal.Blocks

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Combine1.lean ====
/-
  The first combination kernel, read as one array.

  The kernel walks the 100000 rows in ten blocks of 10000. At a block it adds, entry by entry, the aggregated block,
  the feature block scaled row by row by the self-loop coefficient (a column [10000, 1] spread along the 64 lanes), and
  the bias (a vector [64] spread down the rows), and takes the maximum with zero. Each stored entry depends on the same entry of the two feature
  arrays, on the coefficient of its row and on the bias of its column, so the block written at point t is rows
  10000 t … 10000 t + 9999 of one whole-array function of the four arrays; the ten blocks tile the result.
-/
import proofs.«112417_j23192823399174_1_alg».proof.Proof.Gen.KernelIdeal.Frame
import proofs.«112417_j23192823399174_1_alg».proof.Proof.LibKeepdims
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Aggregate plus self-loop term plus bias, clipped below at zero, entry by entry: the self-loop coefficient is a column read at the entry's
    row, the bias a vector read at the entry's column. -/
def combineRelu {M N : ℕ} (agg h : FVec Ideal ⟨2, ![M, N]⟩ .f32) (s : FVec Ideal ⟨2, ![M, 1]⟩ .f32) (b : FVec Ideal ⟨1, ![N]⟩ .f32) :
    FVec Ideal ⟨2, ![M, N]⟩ .f32 :=
  fun i => max ((agg i + h i * s (ix2 (i 0) (0 : Fin 1))) + b (ix1 (i 1))) (Ideal.ofBits .f32 0x00000000#32)

theorem zero_offsets1a : (![0, 0] : Fin 2 → Nat) = fun _ => 0 := funext fun a => by fin_cases a <;> rfl
theorem zero_offsets1b : (![0] : Fin 1 → Nat) = fun _ => 0 := funext fun a => by fin_cases a <;> rfl

variable (V : (c : Dev nD) → (b : Ref sig .tc) → Buf (Elt Ideal) ((c : Thread nD τ).loc b))

/-- The body's stored value at row p, lane q of a block. -/
theorem combine1_entry (x0 x1 : Vec Ideal S10000x64 .f32) (x2 : Vec Ideal S10000x1 .f32) (x3 : Vec Ideal S64 .f32) (p : Fin 10000) (q : Fin 64) :
    k1_pay1 (F := Ideal) x0 x1 x2 x3 (ix2 p q) = max ((x0 (ix2 p q) + x1 (ix2 p q) * x2 (ix2 p (0 : Fin 1))) + x3 (ix1 q)) (Ideal.ofBits .f32 0x00000000#32) := by
  have e0 : shapeCast S10000x64 x0 shapeCasts_S10000x64_S10000x64 = x0 := shapeCast_self _ _
  have e1 : shapeCast S10000x64 x1 shapeCasts_S10000x64_S10000x64 = x1 := shapeCast_self _ _
  have e2 : broadcastTo S10000x64 (shapeCast S10000x1 x2 shapeCasts_S10000x1_S10000x1) broadcasts_S10000x1_S10000x64 (ix2 p q) = x2 (ix2 p (0 : Fin 1)) :=
    (Cert.Lib.Keepdims.broadcastTo_a1_ab_apply _ _ p q).trans (congrFun (shapeCast_self x2 _) _)
  have e3 : broadcastTo S10000x64 (shapeCast S1x64 x3 shapeCasts_S64_S1x64) broadcasts_S1x64_S10000x64 (ix2 p q) = x3 (ix1 q) :=
    (broadcastTo_1b_ab_apply _ _ p q).trans (shapeCast_a_1a_apply x3 _ (0 : Fin 1) q)
  unfold k1_pay1
  show max ((shapeCast S10000x64 x0 shapeCasts_S10000x64_S10000x64 (ix2 p q) + shapeCast S10000x64 x1 shapeCasts_S10000x64_S10000x64 (ix2 p q) * broadcastTo S10000x64 (shapeCast S10000x1 x2 shapeCasts_S10000x1_S10000x1) broadcasts_S10000x1_S10000x64 (ix2 p q)) + broadcastTo S10000x64 (shapeCast S1x64 x3 shapeCasts_S64_S1x64) broadcasts_S1x64_S10000x64 (ix2 p q)) (Ideal.ofBits .f32 0x00000000#32) = _
  rw [e0, e1, e2, e3] <;> rfl

/-- The block positions over the grid: the four row windows sit at block t, the bias window at block 0. -/
theorem positions1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of the combination of the four arrays as the region finds them. -/
theorem flushed1 (c : Dev nD) (t : Fin cfg1.N) :
    (dat1 V c).flushed 4 t
      = ((cfg1.win 4).blk t).view.read (Elt Ideal) (combineRelu (M := 100000) (N := 64) (V c main_v39) (V c main_v4) (V c main_v41) (V c main_arg3)) := by
  show (cfg1.win 4).cut (grid1.coords t) ((dat1 V c).after 4 t) = _
  rw [after1_4]
  unfold out1_4
  rw [View.canon_unit_zero zero_offsets1a]
  simp only [View.ld_unit_zero (S := S10000x64) zero_offsets1a, View.ld_unit_zero (S := S10000x1) zero_offsets1a, View.ld_unit_zero (S := S64) zero_offsets1b]
  obtain ⟨a0, a1, b0, b1, c0, c1, d0, o0, o1⟩ := positions1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (ix2 p q) = _
  refine (combine1_entry _ _ _ _ p q).trans ?_
  let A : FVec Ideal S100000x64 .f32 := V c main_v39
  let H : FVec Ideal S100000x64 .f32 := V c main_v4
  let C : FVec Ideal S100000x1 .f32 := V c main_v41
  let B : FVec Ideal S64 .f32 := V c main_arg3
  show max ((A (((cfg1.win 0).blk t).view.emb (ix2 p q)) + H (((cfg1.win 1).blk t).view.emb (ix2 p q)) * C (((cfg1.win 2).blk t).view.emb (ix2 p (0 : Fin 1)))) + B (((cfg1.win 3).blk t).view.emb (ix1 q))) (Ideal.ofBits .f32 0x00000000#32)
      = max ((A (((cfg1.win 4).blk t).view.emb (ix2 p q)) + H (((cfg1.win 4).blk t).view.emb (ix2 p q)) * C (ix2 ((((cfg1.win 4).blk t).view.emb (ix2 p q)) 0) (0 : Fin 1))) + B (ix1 ((((cfg1.win 4).blk t).view.emb (ix2 p q)) 1))) (Ideal.ofBits .f32 0x00000000#32)
  have h0 : ((cfg1.win 0).blk t).view.emb (ix2 p q) = (((cfg1.win 4).blk t).view.emb (ix2 p q)) := by
    funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = (((cfg1.win 4).blk t).view.emb (ix2 p q)) := by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * 0 = 0; omega
  have h3 : ((cfg1.win 3).blk t).view.emb (ix1 q) = ix1 ((((cfg1.win 4).blk t).view.emb (ix2 p q)) 1) := by
    funext a; apply Fin.ext
    match a with
    | ⟨0, _⟩ => show win1_3.index t (0 : Fin 1) * 64 + 1 * q.val = win1_4.index t (1 : Fin 2) * 64 + 1 * q.val; omega
  rw [h0, h1, h2, h3] <;> rfl

/-- An index of the result is in point t's block iff its row lies in rows 10000 t … 10000 t + 9999. -/
theorem mem_block1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v42).slice (win1_4.rect t)).set ↔ _
  rw [View.set_slice_whole, Rect.mem_set_unit]
  exact Iff.rfl

/-- Every row belongs to the block of the point whose number is the row divided by 10000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨a0, a1, b0, b1, c0, c1, d0, o0, o1⟩ := positions1 t
  have ht : t.val = (i 0).val / 10000 := rfl
  refine ⟨t, flush1_4 t, ?_⟩
  rw [mem_block1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The combined array after the region: the whole-array combination of the four arrays the region found. -/
theorem final1 (c : Dev nD) :
    (dat1 V c).arrAt 4 cfg1.N = combineRelu (M := 100000) (N := 64) (V c main_v39) (V c main_v4) (V c main_v41) (V c main_arg3) :=
  (dat1 V c).arrAt_eq_of_cover 4 _ (fun t _ => flushed1 V c t) cover1

end Cert.KernelIdeal.Blocks

end
-- ==== Proof.Combine2.lean ====
/-
  The second combination kernel, read as one array.

  The kernel walks the 100000 rows in ten blocks of 10000. At a block it adds, entry by entry, the aggregated block,
  the feature block scaled row by row by the self-loop coefficient (a column [10000, 1] spread along the 8 lanes), and
  the bias (a vector [8] spread down the rows). Each stored entry depends on the same entry of the two feature
  arrays, on the coefficient of its row and on the bias of its column, so the block written at point t is rows
  10000 t … 10000 t + 9999 of one whole-array function of the four arrays; the ten blocks tile the result.
-/
import proofs.«112417_j23192823399174_1_alg».proof.Proof.Gen.KernelIdeal.Frame
import proofs.«112417_j23192823399174_1_alg».proof.Proof.LibKeepdims
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-- Aggregate plus self-loop term plus bias, entry by entry: the self-loop coefficient is a column read at the entry's
    row, the bias a vector read at the entry's column. -/
def combine {M N : ℕ} (agg h : FVec Ideal ⟨2, ![M, N]⟩ .f32) (s : FVec Ideal ⟨2, ![M, 1]⟩ .f32) (b : FVec Ideal ⟨1, ![N]⟩ .f32) :
    FVec Ideal ⟨2, ![M, N]⟩ .f32 :=
  fun i => (agg i + h i * s (ix2 (i 0) (0 : Fin 1))) + b (ix1 (i 1))

theorem zero_offsets3a : (![0, 0] : Fin 2 → Nat) = fun _ => 0 := funext fun a => by fin_cases a <;> rfl
theorem zero_offsets3b : (![0] : Fin 1 → Nat) = fun _ => 0 := funext fun a => by fin_cases a <;> rfl

variable (V : (c : Dev nD) → (b : Ref sig .tc) → Buf (Elt Ideal) ((c : Thread nD τ).loc b))

/-- The body's stored value at row p, lane q of a block. -/
theorem combine3_entry (x0 x1 : Vec Ideal S10000x8 .f32) (x2 : Vec Ideal S10000x1 .f32) (x3 : Vec Ideal S8 .f32) (p : Fin 10000) (q : Fin 8) :
    k3_pay1 (F := Ideal) x0 x1 x2 x3 (ix2 p q) = (x0 (ix2 p q) + x1 (ix2 p q) * x2 (ix2 p (0 : Fin 1))) + x3 (ix1 q) := by
  have e0 : shapeCast S10000x8 x0 shapeCasts_S10000x8_S10000x8 = x0 := shapeCast_self _ _
  have e1 : shapeCast S10000x8 x1 shapeCasts_S10000x8_S10000x8 = x1 := shapeCast_self _ _
  have e2 : broadcastTo S10000x8 (shapeCast S10000x1 x2 shapeCasts_S10000x1_S10000x1) broadcasts_S10000x1_S10000x8 (ix2 p q) = x2 (ix2 p (0 : Fin 1)) :=
    (Cert.Lib.Keepdims.broadcastTo_a1_ab_apply _ _ p q).trans (congrFun (shapeCast_self x2 _) _)
  have e3 : broadcastTo S10000x8 (shapeCast S1x8 x3 shapeCasts_S8_S1x8) broadcasts_S1x8_S10000x8 (ix2 p q) = x3 (ix1 q) :=
    (broadcastTo_1b_ab_apply _ _ p q).trans (shapeCast_a_1a_apply x3 _ (0 : Fin 1) q)
  unfold k3_pay1
  show (shapeCast S10000x8 x0 shapeCasts_S10000x8_S10000x8 (ix2 p q) + shapeCast S10000x8 x1 shapeCasts_S10000x8_S10000x8 (ix2 p q) * broadcastTo S10000x8 (shapeCast S10000x1 x2 shapeCasts_S10000x1_S10000x1) broadcasts_S10000x1_S10000x8 (ix2 p q)) + broadcastTo S10000x8 (shapeCast S1x8 x3 shapeCasts_S8_S1x8) broadcasts_S1x8_S10000x8 (ix2 p q) = _
  rw [e0, e1, e2, e3] <;> rfl

/-- The block positions over the grid: the four row windows sit at block t, the bias window at block 0. -/
theorem positions3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

set_option maxHeartbeats 2000000 in
/-- What point t writes back is block t of the combination of the four arrays as the region finds them. -/
theorem flushed3 (c : Dev nD) (t : Fin cfg3.N) :
    (dat3 V c).flushed 4 t
      = ((cfg3.win 4).blk t).view.read (Elt Ideal) (combine (M := 100000) (N := 8) (V c main_v78) (V c main_v43) (V c main_v80) (V c main_arg5)) := by
  show (cfg3.win 4).cut (grid3.coords t) ((dat3 V c).after 4 t) = _
  rw [after3_4]
  unfold out3_4
  rw [View.canon_unit_zero zero_offsets3a]
  simp only [View.ld_unit_zero (S := S10000x8) zero_offsets3a, View.ld_unit_zero (S := S10000x1) zero_offsets3a, View.ld_unit_zero (S := S8) zero_offsets3b]
  obtain ⟨a0, a1, b0, b1, c0, c1, d0, o0, o1⟩ := positions3 t
  funext j
  obtain ⟨p, q, rfl⟩ : ∃ (p : Fin 10000) (q : Fin 8), j = ix2 p q := ⟨j 0, j 1, eq_ix2 j⟩
  show k3_pay1 (F := Ideal) (iblk3 V c 0 t) (iblk3 V c 1 t) (iblk3 V c 2 t) (iblk3 V c 3 t) (ix2 p q) = _
  refine (combine3_entry _ _ _ _ p q).trans ?_
  let A : FVec Ideal S100000x8 .f32 := V c main_v78
  let H : FVec Ideal S100000x8 .f32 := V c main_v43
  let C : FVec Ideal S100000x1 .f32 := V c main_v80
  let B : FVec Ideal S8 .f32 := V c main_arg5
  show (A (((cfg3.win 0).blk t).view.emb (ix2 p q)) + H (((cfg3.win 1).blk t).view.emb (ix2 p q)) * C (((cfg3.win 2).blk t).view.emb (ix2 p (0 : Fin 1)))) + B (((cfg3.win 3).blk t).view.emb (ix1 q))
      = (A (((cfg3.win 4).blk t).view.emb (ix2 p q)) + H (((cfg3.win 4).blk t).view.emb (ix2 p q)) * C (ix2 ((((cfg3.win 4).blk t).view.emb (ix2 p q)) 0) (0 : Fin 1))) + B (ix1 ((((cfg3.win 4).blk t).view.emb (ix2 p q)) 1))
  have h0 : ((cfg3.win 0).blk t).view.emb (ix2 p q) = (((cfg3.win 4).blk t).view.emb (ix2 p q)) := by
    funext a; apply Fin.ext
    match a with
    | ⟨0, _⟩ => show win3_0.index t (0 : Fin 2) * 10000 + 1 * p.val = win3_4.index t (0 : Fin 2) * 10000 + 1 * p.val; omega
    | ⟨1, _⟩ => show win3_0.index t (1 : Fin 2) * 8 + 1 * q.val = win3_4.index t (1 : Fin 2) * 8 + 1 * q.val; omega
  have h1 : ((cfg3.win 1).blk t).view.emb (ix2 p q) = (((cfg3.win 4).blk t).view.emb (ix2 p q)) := by
    funext a; apply Fin.ext
    match a with
    | ⟨0, _⟩ => show win3_1.index t (0 : Fin 2) * 10000 + 1 * p.val = win3_4.index t (0 : Fin 2) * 10000 + 1 * p.val; omega
    | ⟨1, _⟩ => show win3_1.index t (1 : Fin 2) * 8 + 1 * q.val = win3_4.index t (1 : Fin 2) * 8 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * 0 = 0; omega
  have h3 : ((cfg3.win 3).blk t).view.emb (ix1 q) = ix1 ((((cfg3.win 4).blk t).view.emb (ix2 p q)) 1) := by
    funext a; apply Fin.ext
    match a with
    | ⟨0, _⟩ => show win3_3.index t (0 : Fin 1) * 8 + 1 * q.val = win3_4.index t (1 : Fin 2) * 8 + 1 * q.val; omega
  rw [h0, h1, h2, h3] <;> rfl

/-- An index of the result is in point t's block iff its row lies in rows 10000 t … 10000 t + 9999. -/
theorem mem_block3 (t : Fin cfg3.N) (i : S100000x8.Idx) :
    i ∈ ((cfg3.win 4).blk t).view.set ↔ ∀ a : Fin 2, win3_4.index t a * S10000x8.size a ≤ (i a).val ∧ (i a).val < win3_4.index t a * S10000x8.size a + S10000x8.size a := by
  show i ∈ ((View.whole main_v81).slice (win3_4.rect t)).set ↔ _
  rw [View.set_slice_whole, Rect.mem_set_unit]
  exact Iff.rfl

/-- Every row belongs to the block of the point whose number is the row divided by 10000. -/
theorem cover3 (i : S100000x8.Idx) : ∃ t : Fin cfg3.N, (cfg3.win 4).flush t = true ∧ i ∈ ((cfg3.win 4).blk t).view.set := by
  have hi0 : (i 0).val < 100000 := (i 0).isLt
  have hi1 : (i 1).val < 8 := (i 1).isLt
  let t : Fin cfg3.N := ⟨(i 0).val / 10000, by rw [show cfg3.N = 10 from N_3]; omega⟩
  obtain ⟨a0, a1, b0, b1, c0, c1, d0, o0, o1⟩ := positions3 t
  have ht : t.val = (i 0).val / 10000 := rfl
  refine ⟨t, flush3_4 t, ?_⟩
  rw [mem_block3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 8 ≤ (i 1).val ∧ (i 1).val < win3_4.index t (1 : Fin 2) * 8 + 8; omega

/-- The combined array after the region: the whole-array combination of the four arrays the region found. -/
theorem final3 (c : Dev nD) :
    (dat3 V c).arrAt 4 cfg3.N = combine (M := 100000) (N := 8) (V c main_v78) (V c main_v43) (V c main_v80) (V c main_arg5) :=
  (dat3 V c).arrAt_eq_of_cover 4 _ (fun t _ => flushed3 V c t) cover3

end Cert.KernelIdeal.Blocks

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.Layers.lean ====
/-
  The kernel's four regions compute the reference's four dense steps.

  Over the extended reals: a block-by-block matrix product is the host's dot_general of the whole arrays (entry by
  entry both are the same finite sum), and the kernel's combination — aggregate + features · (column coefficient) +
  bias, with the column spread along the lanes and the bias spread down the rows — is the reference's, whose spreading
  is written with broadcast_in_dim. Stated as equalities of whole-array functions.
-/
import proofs.«112417_j23192823399174_1_alg».proof.Proof.Linear1
import proofs.«112417_j23192823399174_1_alg».proof.Proof.Combine1
import proofs.«112417_j23192823399174_1_alg».proof.Proof.Combine2
import proofs.«112417_j23192823399174_1_alg».proof.Proof.Network
import proofs.«112417_j23192823399174_1_alg».proof.Proof.LibPlainDot
import proofs.«112417_j23192823399174_1_alg».proof.Proof.LibBroadcastInDim
import Idealize.ShloMosaic.Lib.Pipeline.Value
import Idealize.ShloMosaic.Lib.ValueIdx

noncomputable section

namespace Cert.Gcn

open Cert.ReferenceIdeal Cert.ReferenceIdeal.Gen Idealize.ShloMosaic Idealize.ShloMosaic.TcCoe Idealize.ShloMosaic.ValueIdx
open Cert.KernelIdeal.Blocks (matProd combineRelu combine)

/-- The first layer's product: the sum over the 6 input features is the host's contraction. -/
theorem matProd_dense1 (x : FVec Ideal S100000x6 .f32) (w : FVec Ideal S6x64 .f32) :
    matProd (M := 100000) (K := 6) (N := 64) x w = dense1 x w := by
  funext i
  obtain ⟨p, g, rfl⟩ : ∃ (p : Fin 100000) (g : Fin 64), i = ix2 p g := ⟨i 0, i 1, eq_ix2 i⟩
  exact (Cert.PlainDot.hostDot_apply dot_S100000x6_S6x64_S100000x64_1_0_0_1_n_n rfl x w p g).symm

/-- The second layer's product: the sum over the 64 hidden features is the host's contraction. -/
theorem matProd_dense2 (y : FVec Ideal S100000x64 .f32) (w : FVec Ideal S64x8 .f32) :
    matProd (M := 100000) (K := 64) (N := 8) y w = dense2 y w := by
  funext i
  obtain ⟨p, g, rfl⟩ : ∃ (p : Fin 100000) (g : Fin 8), i = ix2 p g := ⟨i 0, i 1, eq_ix2 i⟩
  exact (Cert.PlainDot.hostDot_apply dot_S100000x64_S64x8_S100000x8_1_0_0_1_n_n rfl y w p g).symm

/-- The first combination: entry (p, q) reads the coefficient column at row p and the bias at lane q on both sides,
    and zero is zero. -/
theorem combineRelu_layer1 (a h : FVec Ideal S100000x64 .f32) (s : FVec Ideal S100000x1 .f32) (b : FVec Ideal S64 .f32) :
    combineRelu (M := 100000) (N := 64) a h s b = layer1Out a h s b := by
  funext i
  obtain ⟨p, q, rfl⟩ : ∃ (p : Fin 100000) (q : Fin 64), i = ix2 p q := ⟨i 0, i 1, eq_ix2 i⟩
  have e1 : broadcastInDim S100000x64 ![0, 1] bcast_S100000x1_S100000x64_0_1 s (ix2 p q) = s (ix2 p (0 : Fin 1)) :=
    Cert.Lib.InDim.col_spread s _ p q
  have e2 : broadcastInDim S100000x64 ![0, 1] bcast_S1x64_S100000x64_0_1 (broadcastInDim S1x64 ![1] bcast_S64_S1x64_1 b) (ix2 p q) = b (ix1 q) :=
    (Cert.Lib.InDim.row_spread _ _ p q).trans (Cert.Lib.InDim.vec_as_row b _ (0 : Fin 1) q)
  have e3 : broadcastInDim S100000x64 ![] bcast_S_S100000x64 (constant (F := Ideal) S_ .f32 0x00000000#32) (ix2 p q) = Ideal.ofBits .f32 0x00000000#32 :=
    broadcastInDim_apply _ bcast_S_S100000x64 (constant (F := Ideal) S_ .f32 0x00000000#32) (ix2 p q) ix0 (fun ax => ax.elim0)
  show max ((a (ix2 p q) + h (ix2 p q) * s (ix2 p (0 : Fin 1))) + b (ix1 q)) (Ideal.ofBits .f32 0x00000000#32)
    = max ((a (ix2 p q) + h (ix2 p q) * broadcastInDim S100000x64 ![0, 1] bcast_S100000x1_S100000x64_0_1 s (ix2 p q))
        + broadcastInDim S100000x64 ![0, 1] bcast_S1x64_S100000x64_0_1 (broadcastInDim S1x64 ![1] bcast_S64_S1x64_1 b) (ix2 p q))
      (broadcastInDim S100000x64 ![] bcast_S_S100000x64 (constant (F := Ideal) S_ .f32 0x00000000#32) (ix2 p q))
  rw [e1, e2, e3]

/-- The second combination: the same reading, without the maximum. -/
theorem combine_layer2 (a h : FVec Ideal S100000x8 .f32) (s : FVec Ideal S100000x1 .f32) (b : FVec Ideal S8 .f32) :
    combine (M := 100000) (N := 8) a h s b = layer2Out a h s b := by
  funext i
  obtain ⟨p, q, rfl⟩ : ∃ (p : Fin 100000) (q : Fin 8), i = ix2 p q := ⟨i 0, i 1, eq_ix2 i⟩
  have e1 : broadcastInDim S100000x8 ![0, 1] bcast_S100000x1_S100000x8_0_1 s (ix2 p q) = s (ix2 p (0 : Fin 1)) :=
    Cert.Lib.InDim.col_spread s _ p q
  have e2 : broadcastInDim S100000x8 ![0, 1] bcast_S1x8_S100000x8_0_1 (broadcastInDim S1x8 ![1] bcast_S8_S1x8_1 b) (ix2 p q) = b (ix1 q) :=
    (Cert.Lib.InDim.row_spread _ _ p q).trans (Cert.Lib.InDim.vec_as_row b _ (0 : Fin 1) q)
  show (a (ix2 p q) + h (ix2 p q) * s (ix2 p (0 : Fin 1))) + b (ix1 q)
    = (a (ix2 p q) + h (ix2 p q) * broadcastInDim S100000x8 ![0, 1] bcast_S100000x1_S100000x8_0_1 s (ix2 p q))
        + broadcastInDim S100000x8 ![0, 1] bcast_S1x8_S100000x8_0_1 (broadcastInDim S1x8 ![1] bcast_S8_S1x8_1 b) (ix2 p q)
  rw [e1, e2]

end Cert.Gcn

end
-- ==== Proof.Chain.lean ====
/-
  The kernel program's result, boundary by boundary.

  The memory at each of the program's seven boundaries is a fold from the launch memory. Reading the fold at the buffers
  the later segments use — the two rows of the edge list, each dense product, each aggregate and coefficient column,
  each combination, and the weights and biases carried along untouched — gives, at the last boundary, the result's
  buffer as the two-layer network of the six arguments. A host stretch is read by running its operations on the
  previous boundary's contents; a region by its kernel's whole-array form, every other buffer being left as it was.
-/
import proofs.«112417_j23192823399174_1_alg».proof.Proof.Gen.KernelIdeal.Frame
import proofs.«112417_j23192823399174_1_alg».proof.Proof.Linear1
import proofs.«112417_j23192823399174_1_alg».proof.Proof.Linear2
import proofs.«112417_j23192823399174_1_alg».proof.Proof.Combine1
import proofs.«112417_j23192823399174_1_alg».proof.Proof.Combine2
import proofs.«112417_j23192823399174_1_alg».proof.Proof.Network
import proofs.«112417_j23192823399174_1_alg».proof.Proof.Layers
import Idealize.ShloMosaic.Lib.StableHlo.Run

set_option maxRecDepth 16384

noncomputable section

namespace Cert.KernelIdeal.Chain

open Cert.KernelIdeal Cert.KernelIdeal.Gen Cert.KernelIdeal.Blocks Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The six arguments and the values the network passes from step to step -/

abbrev argX : FVec Ideal S100000x6 .f32 := (m ((c.tc : Thread nD τ).loc main_arg0))
abbrev argE : IVec S2x1600000 32 := (m ((c.tc : Thread nD τ).loc main_arg1))
abbrev argW1 : FVec Ideal S6x64 .f32 := (m ((c.tc : Thread nD τ).loc main_arg2))
abbrev argB1 : FVec Ideal S64 .f32 := (m ((c.tc : Thread nD τ).loc main_arg3))
abbrev argW2 : FVec Ideal S64x8 .f32 := (m ((c.tc : Thread nD τ).loc main_arg4))
abbrev argB2 : FVec Ideal S8 .f32 := (m ((c.tc : Thread nD τ).loc main_arg5))

/-- Each edge's source node. -/
def src : IVec S1600000 32 := sourceOf (argE m c)
/-- Each edge's target node. -/
def dst : IVec S1600000 32 := targetOf (argE m c)
/-- The first dense product. -/
def hid1 : FVec Ideal S100000x64 .f32 := dense1 (argX m c) (argW1 m c)
/-- The first layer's output. -/
def out1 : FVec Ideal S100000x64 .f32 := layer1Out (aggregate64 (src m c) (dst m c) (hid1 m c)) (hid1 m c) (selfLoopColumn (dst m c)) (argB1 m c)
/-- The second dense product. -/
def hid2 : FVec Ideal S100000x8 .f32 := dense2 (out1 m c) (argW2 m c)

/-! ## After the first host stretch: the edge list's two rows -/

/-- The sources are row 0 of the edge list. -/
theorem s1_src : W1 m ρ c (Proc.devRef .tc main_v1) = (src m c) := by
  show StableHlo.after hostOps0 (W0 m ρ c) (Proc.devRef .tc main_v1) = _
  after_results_simp <;> rfl

/-- The targets are row 1 of the edge list. -/
theorem s1_dst : W1 m ρ c (Proc.devRef .tc main_v3) = (dst m c) := by
  show StableHlo.after hostOps0 (W0 m ρ c) (Proc.devRef .tc main_v3) = _
  after_results_simp <;> rfl

/-- The node features are untouched. -/
theorem s1_x : W1 m ρ c (Proc.devRef .tc main_arg0) = (argX m c) := by
  show StableHlo.after hostOps0 (W0 m ρ c) (Proc.devRef .tc main_arg0) = _
  after_results_simp <;> rfl

/-- The first weights are untouched. -/
theorem s1_w1 : W1 m ρ c (Proc.devRef .tc main_arg2) = (argW1 m c) := by
  show StableHlo.after hostOps0 (W0 m ρ c) (Proc.devRef .tc main_arg2) = _
  after_results_simp <;> rfl

/-- The first bias is untouched. -/
theorem s1_b1 : W1 m ρ c (Proc.devRef .tc main_arg3) = (argB1 m c) := by
  show StableHlo.after hostOps0 (W0 m ρ c) (Proc.devRef .tc main_arg3) = _
  after_results_simp <;> rfl

/-- The second weights are untouched. -/
theorem s1_w2 : W1 m ρ c (Proc.devRef .tc main_arg4) = (argW2 m c) := by
  show StableHlo.after hostOps0 (W0 m ρ c) (Proc.devRef .tc main_arg4) = _
  after_results_simp <;> rfl

/-- The second bias is untouched. -/
theorem s1_b2 : W1 m ρ c (Proc.devRef .tc main_arg5) = (argB2 m c) := by
  show StableHlo.after hostOps0 (W0 m ρ c) (Proc.devRef .tc main_arg5) = _
  after_results_simp <;> rfl

/-! ## After the first dense region -/

/-- The region leaves the product of the features and the first weights. -/
theorem s2_hid1 : W2 m ρ c (Proc.devRef .tc main_v4) = (hid1 m c) :=
  (W2_arr m ρ c 2).trans ((final0 (V1 m ρ) c).trans
    ((congrArg₂ (matProd (M := 100000) (K := 6) (N := 64)) (s1_x m ρ c) (s1_w1 m ρ c)).trans (matProd_dense1 _ _)))
/-- The sources are not the region's. -/
theorem s2_src : W2 m ρ c (Proc.devRef .tc main_v1) = (src m c) :=
  (W2_of_ne m ρ c main_v1 (by decide)).trans (s1_src m ρ c)

/-- The targets are not the region's. -/
theorem s2_dst : W2 m ρ c (Proc.devRef .tc main_v3) = (dst m c) :=
  (W2_of_ne m ρ c main_v3 (by decide)).trans (s1_dst m ρ c)

/-- The first bias is not the region's. -/
theorem s2_b1 : W2 m ρ c (Proc.devRef .tc main_arg3) = (argB1 m c) :=
  (W2_of_ne m ρ c main_arg3 (by decide)).trans (s1_b1 m ρ c)

/-- The second weights are not the region's. -/
theorem s2_w2 : W2 m ρ c (Proc.devRef .tc main_arg4) = (argW2 m c) :=
  (W2_of_ne m ρ c main_arg4 (by decide)).trans (s1_w2 m ρ c)

/-- The second bias is not the region's. -/
theorem s2_b2 : W2 m ρ c (Proc.devRef .tc main_arg5) = (argB2 m c) :=
  (W2_of_ne m ρ c main_arg5 (by decide)).trans (s1_b2 m ρ c)

/-! ## After the second host stretch: the first aggregate and the coefficient column -/

set_option maxHeartbeats 4000000 in
/-- The stretch's scatter, gathers and scalings are the 64-feature aggregate of the first product. -/
theorem s3_agg : W3 m ρ c (Proc.devRef .tc main_v39) = aggregate64 (src m c) (dst m c) (hid1 m c) := by
  show StableHlo.after hostOps1 (W2 m ρ c) (Proc.devRef .tc main_v39) = _
  after_results_simp
  rw [s2_src m ρ c, s2_dst m ρ c, s2_hid1 m ρ c] <;> rfl

/-- The stretch's coefficient column. -/
theorem s3_col : W3 m ρ c (Proc.devRef .tc main_v41) = selfLoopColumn (dst m c) := by
  show StableHlo.after hostOps1 (W2 m ρ c) (Proc.devRef .tc main_v41) = _
  after_results_simp
  rw [s2_dst m ρ c] <;> rfl

/-- The first product is untouched. -/
theorem s3_hid1 : W3 m ρ c (Proc.devRef .tc main_v4) = (hid1 m c) := by
  show StableHlo.after hostOps1 (W2 m ρ c) (Proc.devRef .tc main_v4) = _
  after_results_simp
  exact s2_hid1 m ρ c

/-- The sources are untouched. -/
theorem s3_src : W3 m ρ c (Proc.devRef .tc main_v1) = (src m c) := by
  show StableHlo.after hostOps1 (W2 m ρ c) (Proc.devRef .tc main_v1) = _
  after_results_simp
  exact s2_src m ρ c

/-- The targets are untouched. -/
theorem s3_dst : W3 m ρ c (Proc.devRef .tc main_v3) = (dst m c) := by
  show StableHlo.after hostOps1 (W2 m ρ c) (Proc.devRef .tc main_v3) = _
  after_results_simp
  exact s2_dst m ρ c

/-- The first bias is untouched. -/
theorem s3_b1 : W3 m ρ c (Proc.devRef .tc main_arg3) = (argB1 m c) := by
  show StableHlo.after hostOps1 (W2 m ρ c) (Proc.devRef .tc main_arg3) = _
  after_results_simp
  exact s2_b1 m ρ c

/-- The second weights are untouched. -/
theorem s3_w2 : W3 m ρ c (Proc.devRef .tc main_arg4) = (argW2 m c) := by
  show StableHlo.after hostOps1 (W2 m ρ c) (Proc.devRef .tc main_arg4) = _
  after_results_simp
  exact s2_w2 m ρ c

/-- The second bias is untouched. -/
theorem s3_b2 : W3 m ρ c (Proc.devRef .tc main_arg5) = (argB2 m c) := by
  show StableHlo.after hostOps1 (W2 m ρ c) (Proc.devRef .tc main_arg5) = _
  after_results_simp
  exact s2_b2 m ρ c

/-! ## After the first combination region -/

/-- The region leaves the first layer's output. -/
theorem s4_out1 : W4 m ρ c (Proc.devRef .tc main_v42) = (out1 m c) :=
  (W4_arr m ρ c 4).trans ((final1 (V3 m ρ) c).trans
    ((show combineRelu (M := 100000) (N := 64) (W3 m ρ c (Proc.devRef .tc main_v39)) (W3 m ρ c (Proc.devRef .tc main_v4)) (W3 m ρ c (Proc.devRef .tc main_v41)) (W3 m ρ c (Proc.devRef .tc main_arg3))
        = combineRelu (M := 100000) (N := 64) (aggregate64 (src m c) (dst m c) (hid1 m c)) (hid1 m c) (selfLoopColumn (dst m c)) (argB1 m c) by
      rw [s3_agg m ρ c, s3_hid1 m ρ c, s3_col m ρ c, s3_b1 m ρ c]).trans (combineRelu_layer1 _ _ _ _)))
/-- The sources are not the region's. -/
theorem s4_src : W4 m ρ c (Proc.devRef .tc main_v1) = (src m c) :=
  (W4_of_ne m ρ c main_v1 (by decide)).trans (s3_src m ρ c)

/-- The targets are not the region's. -/
theorem s4_dst : W4 m ρ c (Proc.devRef .tc main_v3) = (dst m c) :=
  (W4_of_ne m ρ c main_v3 (by decide)).trans (s3_dst m ρ c)

/-- The second weights are not the region's. -/
theorem s4_w2 : W4 m ρ c (Proc.devRef .tc main_arg4) = (argW2 m c) :=
  (W4_of_ne m ρ c main_arg4 (by decide)).trans (s3_w2 m ρ c)

/-- The second bias is not the region's. -/
theorem s4_b2 : W4 m ρ c (Proc.devRef .tc main_arg5) = (argB2 m c) :=
  (W4_of_ne m ρ c main_arg5 (by decide)).trans (s3_b2 m ρ c)

/-! ## After the second dense region -/

/-- The region leaves the product of the first layer's output and the second weights. -/
theorem s5_hid2 : W5 m ρ c (Proc.devRef .tc main_v43) = (hid2 m c) :=
  (W5_arr m ρ c 2).trans ((final2 (V4 m ρ) c).trans
    ((congrArg₂ (matProd (M := 100000) (K := 64) (N := 8)) (s4_out1 m ρ c) (s4_w2 m ρ c)).trans (matProd_dense2 _ _)))
/-- The sources are not the region's. -/
theorem s5_src : W5 m ρ c (Proc.devRef .tc main_v1) = (src m c) :=
  (W5_of_ne m ρ c main_v1 (by decide)).trans (s4_src m ρ c)

/-- The targets are not the region's. -/
theorem s5_dst : W5 m ρ c (Proc.devRef .tc main_v3) = (dst m c) :=
  (W5_of_ne m ρ c main_v3 (by decide)).trans (s4_dst m ρ c)

/-- The second bias is not the region's. -/
theorem s5_b2 : W5 m ρ c (Proc.devRef .tc main_arg5) = (argB2 m c) :=
  (W5_of_ne m ρ c main_arg5 (by decide)).trans (s4_b2 m ρ c)

/-! ## After the third host stretch: the second aggregate and the coefficient column -/

set_option maxHeartbeats 4000000 in
/-- The stretch's scatter, gathers and scalings are the 8-feature aggregate of the second product. -/
theorem s6_agg : W6 m ρ c (Proc.devRef .tc main_v78) = aggregate8 (src m c) (dst m c) (hid2 m c) := by
  show StableHlo.after hostOps3 (W5 m ρ c) (Proc.devRef .tc main_v78) = _
  after_results_simp
  rw [s5_src m ρ c, s5_dst m ρ c, s5_hid2 m ρ c] <;> rfl

/-- The stretch's coefficient column. -/
theorem s6_col : W6 m ρ c (Proc.devRef .tc main_v80) = selfLoopColumn (dst m c) := by
  show StableHlo.after hostOps3 (W5 m ρ c) (Proc.devRef .tc main_v80) = _
  after_results_simp
  rw [s5_dst m ρ c] <;> rfl

/-- The second product is untouched. -/
theorem s6_hid2 : W6 m ρ c (Proc.devRef .tc main_v43) = (hid2 m c) := by
  show StableHlo.after hostOps3 (W5 m ρ c) (Proc.devRef .tc main_v43) = _
  after_results_simp
  exact s5_hid2 m ρ c

/-- The second bias is untouched. -/
theorem s6_b2 : W6 m ρ c (Proc.devRef .tc main_arg5) = (argB2 m c) := by
  show StableHlo.after hostOps3 (W5 m ρ c) (Proc.devRef .tc main_arg5) = _
  after_results_simp
  exact s5_b2 m ρ c

/-! ## After the second combination region: the result -/

/-- The result's buffer ends at the two-layer network of the six arguments. -/
theorem result : W7 m ρ c (Proc.devRef .tc main_v81) = network (argX m c) (argE m c) (argW1 m c) (argB1 m c) (argW2 m c) (argB2 m c) :=
  (W7_arr m ρ c 4).trans ((final3 (V6 m ρ) c).trans
    ((show combine (M := 100000) (N := 8) (W6 m ρ c (Proc.devRef .tc main_v78)) (W6 m ρ c (Proc.devRef .tc main_v43)) (W6 m ρ c (Proc.devRef .tc main_v80)) (W6 m ρ c (Proc.devRef .tc main_arg5))
        = combine (M := 100000) (N := 8) (aggregate8 (src m c) (dst m c) (hid2 m c)) (hid2 m c) (selfLoopColumn (dst m c)) (argB2 m c) by
      rw [s6_agg m ρ c, s6_hid2 m ρ c, s6_col m ρ c, s6_b2 m ρ c]).trans (combine_layer2 _ _ _ _)))

end Cert.KernelIdeal.Chain

end
-- ==== Proof.lean ====
/-
  A two-layer graph convolution: the tiled kernel program against the plain reference, over the extended reals.

  Both programs compute, twice over, out = aggregate(h) + h · d² + bias with h = (input) · W, where d is every node's
  (in-degree + 1)^(-1/2) and aggregate(h) sums, into every node, the feature rows of the nodes pointing at it, each
  scaled by d(source) · d(target); the first layer ends with a maximum with zero. The kernel program runs the two
  dense products and the two combinations as tiled kernels over ten blocks of 10000 rows and leaves the degree count,
  the gathers and the scatter-adds to the same host operations the reference uses.

  The proof: the kernel program's run names the result's buffer as the last of seven memory boundaries (RunResult);
  each tiled kernel's ten write-backs assemble into one whole-array function (Linear1, Linear2, Combine1, Combine2),
  which is the reference's dense step (Layers); the boundaries are read one after the other down to the result (Chain);
  the reference's composed term is the same network of the six arguments (Network). No law of arithmetic beyond the
  definition of a matrix product as a finite sum is used, so the inputs' finiteness is never opened. The idealization
  rewrote nothing, so there is nothing to preserve.
-/
import proofs.«112417_j23192823399174_1_alg».proof.Defs
import proofs.«112417_j23192823399174_1_alg».proof.Proof.Gen.Kernel
import proofs.«112417_j23192823399174_1_alg».proof.Proof.Gen.Kernel.Skeleton
import proofs.«112417_j23192823399174_1_alg».proof.Proof.Gen.Kernel.Launch
import proofs.«112417_j23192823399174_1_alg».proof.Proof.Gen.Kernel.Points
import proofs.«112417_j23192823399174_1_alg».proof.Proof.Gen.Kernel.Frame
import proofs.«112417_j23192823399174_1_alg».proof.Proof.Gen.KernelIdeal
import proofs.«112417_j23192823399174_1_alg».proof.Proof.Gen.KernelIdeal.Skeleton
import proofs.«112417_j23192823399174_1_alg».proof.Proof.Gen.KernelIdeal.Launch
import proofs.«112417_j23192823399174_1_alg».proof.Proof.Gen.KernelIdeal.Points
import proofs.«112417_j23192823399174_1_alg».proof.Proof.Gen.KernelIdeal.Frame
import proofs.«112417_j23192823399174_1_alg».proof.Proof.Gen.ReferenceIdeal
import proofs.«112417_j23192823399174_1_alg».proof.Proof.Gen.ReferenceIdeal.Run
import proofs.«112417_j23192823399174_1_alg».proof.Proof.Gen.Pre_finite_inputs
import proofs.«112417_j23192823399174_1_alg».proof.Proof.RunResult
import proofs.«112417_j23192823399174_1_alg».proof.Proof.Network
import proofs.«112417_j23192823399174_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the network of those arguments in their result. -/
theorem algebraic : Cert.algebraic_KernelIdeal_ReferenceIdeal := by
  intro m ρ m' ρ' _ hagree
  refine ⟨fun c => Cert.Gcn.network (Cert.KernelIdeal.Chain.argX m c) (Cert.KernelIdeal.Chain.argE m c) (Cert.KernelIdeal.Chain.argW1 m c)
      (Cert.KernelIdeal.Chain.argB1 m c) (Cert.KernelIdeal.Chain.argW2 m c) (Cert.KernelIdeal.Chain.argB2 m c), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.reference_result, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
